-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S1600000 32) (main_arg2 : IVec S1600000 32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000x128 : Shape := ⟨2, ![50000, 128]⟩
abbrev S1x128 : Shape := ⟨2, ![1, 128]⟩
abbrev S5000x128 : Shape := ⟨2, ![5000, 128]⟩

abbrev nBuf : Space → Nat
  | .hbm => 34
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S50000x128, .f32⟩
  | .hbm, ⟨16, _⟩ => ⟨S1600000x1, .i32⟩
  | .hbm, ⟨17, _⟩ => ⟨S50000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S128x128, .f32⟩
  | .hbm, ⟨32, _⟩ => ⟨S1x128, .f32⟩
  | .hbm, ⟨33, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S50000x128 : Shape := ⟨2, ![50000, 128]⟩
abbrev S1x128 : Shape := ⟨2, ![1, 128]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S50000x128, .f32⟩
  | .hbm, ⟨16, _⟩ => ⟨S1600000x1, .i32⟩
  | .hbm, ⟨17, _⟩ => ⟨S50000x128, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S_, .f32⟩
  | .hbm, ⟨28, _⟩ => ⟨S100000x128, .f32⟩
  | .hbm, ⟨29, _⟩ => ⟨S1600000x1, .i32⟩
  | .hbm, ⟨30, _⟩ => ⟨S100000x128, .f32⟩
  | .hbm, ⟨31, _⟩ => ⟨S_, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S128x128, .f32⟩
  | .hbm, ⟨36, _⟩ => ⟨S100000x128, .f32⟩
  | .hbm, ⟨37, _⟩ => ⟨S1x128, .f32⟩
  | .hbm, ⟨38, _⟩ => ⟨S100000x128, .f32⟩
  | .hbm, ⟨39, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S50000x128_S1600000x1_S1600000x128_1_0_0_1_wf : ScatterDims.WF S50000x128 S1600000x1 S1600000x128 [1] [0] [0] 1
  gather_S50000x128_S1600000x1_S1600000x128_1_0_n_n_0_1_1128_wf : GatherDims.WF S50000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LayerSpec.lean ====
/-
  The result as ONE function of four arrays, index by index, on the extended reals.

  For a row `r` and a column `j`

      out (r, j) = (∑ k, (one · x (r, k) + a (r, k)) · W (j, k)) + b j,

  with `x` and `a` two 100000 × 128 matrices, `W` a 128 × 128 matrix read with its FIRST index the column of the
  result (so the sum is the matrix product of `one · x + a` with the transpose of `W`), `b` a vector of 128 entries
  added to every row, and `one` a fixed scalar, kept as the float word both programs spell. Row `r` of the result
  depends on row `r` of `x` and of `a` only: that is what lets the rows be computed in independent blocks.
-/
import Idealize.ShloMosaic.PureOps.Ideal
import Idealize.ShloMosaic.Lib.ValueIdx

noncomputable section

open scoped BigOperators

namespace Cert.LayerSpec

open Idealize.ShloMosaic Idealize.ShloMosaic.ValueIdx

/-- The fixed scalar multiplying `x`: the float word for one. -/
abbrev selfScale : EReal := Ideal.ofBits .f32 0x3F800000#32

/-- Entry `(r, j)` of the result: row `r` of `one · x + a` against row `j` of `W`, plus entry `j` of `b`. -/
def layerOut (x a : (⟨2, ![100000, 128]⟩ : Shape).Idx → EReal) (W : (⟨2, ![128, 128]⟩ : Shape).Idx → EReal)
    (b : (⟨1, ![128]⟩ : Shape).Idx → EReal) : (⟨2, ![100000, 128]⟩ : Shape).Idx → EReal :=
  fun i => (∑ k : Fin 128, (selfScale * x (ix2 (i 0) k) + a (ix2 (i 0) k)) * W (ix2 (i 1) k)) + b (ix1 (i 1))

theorem layerOut_apply (x a : (⟨2, ![100000, 128]⟩ : Shape).Idx → EReal) (W : (⟨2, ![128, 128]⟩ : Shape).Idx → EReal)
    (b : (⟨1, ![128]⟩ : Shape).Idx → EReal) (r : Fin 100000) (j : Fin 128) :
    layerOut x a W b (ix2 r j)
      = (∑ k : Fin 128, (selfScale * x (ix2 r k) + a (ix2 r k)) * W (ix2 j k)) + b (ix1 j) := rfl

end Cert.LayerSpec

end
-- ==== Proof.KernelBlock.lean ====
/-
  What the body computes from its four blocks, read at one entry, on the extended reals.

  The body adds the scaled first block to the second, multiplies the 5000 × 128 sum by the 128 × 128 third block
  (into a zero accumulator) and adds the fourth block, one row of 128 entries, to every row of the product. The two
  changes of float format before the product are the identity on the extended reals, the reshapes of a block to its
  own shape are the identity, and the product into the zero accumulator is the plain sum over the contracted axis.
  So at row `p` and column `q` of the block

      (∑ k, (one · x0 (p, k) + x1 (p, k)) · x2 (k, q)) + x3 (0, q).
-/
import proofs.«115650_j7198365188795_1_alg».proof.Proof.Gen.KernelIdeal.Skeleton
import proofs.«115650_j7198365188795_1_alg».proof.Proof.LayerSpec
import Idealize.ShloMosaic.Lib.ValueIdx
import Idealize.ShloMosaic.Lib.Pipeline.Value
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The left operand of the product is read at the result's row: axis 0 of the left operand is not contracted. -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The right operand is read at the result's column: axis 1 of the right operand is not contracted. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at row `p` and column `q`: the sum over the one contracted axis of the left
    operand's row `p` against the right operand's column `q`. -/
theorem matmul_entry (l : FVec Ideal S5000x128 .bf16) (r : FVec Ideal S128x128 .bf16) (p : Fin 5000) (q : Fin 128) :
    FloatOps.matmul dot_S5000x128_S128x128_S5000x128_1_0_0_1_n_n none l r (constant S5000x128 .f32 0x00000000#32) (ix2 p q)
      = ∑ k : Fin 128, l (ix2 p k) * r (ix2 k q) := by
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (dot_S5000x128_S128x128_S5000x128_1_0_0_1_n_n.lhsIdx_val_of_single rfl _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (dot_S5000x128_S128x128_S5000x128_1_0_0_1_n_n.rhsIdx_val_of_single rfl _ _).trans hk
    | ⟨1, _⟩ => exact rhs_col _ _)
  rw [el, er]

/-- One row of 128 entries repeated down 5000 rows: entry `(p, q)` is entry `(0, q)` of the row. -/
theorem rowBroadcast_entry (v : FVec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (fun a => by
    match a with
    | ⟨0, _⟩ => show (0 : Nat) = if (1 : Nat) = 1 then 0 else p.val; rw [if_pos rfl]
    | ⟨1, _⟩ => show q.val = if (128 : Nat) = 1 then 0 else q.val; rw [if_neg (by decide)])

/-- THE BODY'S RESULT AT AN ENTRY: row `p` of `one · x0 + x1` against column `q` of `x2`, plus entry `q` of the row `x3`. -/
theorem payload_entry (x0 x1 : FVec Ideal S5000x128 .f32) (x2 : FVec Ideal S128x128 .f32) (x3 : FVec Ideal S1x128 .f32)
    (p : Fin 5000) (q : Fin 128) :
    k0_pay1 (F := Ideal) x0 x1 x2 x3 (ix2 p q)
      = (∑ k : Fin 128, (Cert.LayerSpec.selfScale * x0 (ix2 p k) + x1 (ix2 p k)) * x2 (ix2 k q)) + x3 (ix2 0 q) := by
  unfold k0_pay1
  simp only [shapeCast_self]
  refine (addf_apply _ _ _).trans ?_
  refine congrArg₂ (· + ·) ((matmul_entry _ _ p q).trans ?_) (rowBroadcast_entry x3 p q)
  rfl

end Cert.KernelIdeal.Block

end
-- ==== Proof.KernelPoint.lean ====
/-
  One grid point, over plain variables, and the printed index maps.

  If a 5000 × 128 block `x0` (and likewise `x1`) is the rows `base … base + 4999` of a 100000 × 128 array, `x2` is the
  transpose of a 128 × 128 matrix `W` and `x3` is a vector `b` laid out as one row, then the body's result at entry
  `(p, q)` of the block is `LayerSpec.layerOut` at entry `(base + p, q)` of the array: the body's sum runs over row `p`
  of the two blocks, which is row `base + p` of the arrays, and over column `q` of the transpose, which is row `q` of `W`.
  The index maps say which rows each window holds at each of the 20 points; they are decided once over the grid.
-/
import proofs.«115650_j7198365188795_1_alg».proof.Proof.Gen.KernelIdeal.Frame
import proofs.«115650_j7198365188795_1_alg».proof.Proof.KernelBlock

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Cert.LayerSpec

/-! ## One point, over plain variables -/

/-- If `x0`, `x1` are the rows `base + p` of `X`, `A` (read through an embedding `e` that shifts the row by `base` and
    keeps the column), `x2` is the transpose of `W` and `x3` is `b` as one row, then the body's result at an entry is
    `layerOut X A W b` at the embedded entry. -/
theorem point_entry (X A : S100000x128.Idx → EReal) (W : S128x128.Idx → EReal) (b : S128.Idx → EReal)
    (x0 x1 : FVec Ideal S5000x128 .f32) (x2 : FVec Ideal S128x128 .f32) (x3 : FVec Ideal S1x128 .f32)
    (e : S5000x128.Idx → S100000x128.Idx) (base : Nat)
    (he0 : ∀ y, (e y 0).val = base + (y 0).val) (he1 : ∀ y, (e y 1).val = (y 1).val)
    (h0 : ∀ y, x0 y = X (e y)) (h1 : ∀ y, x1 y = A (e y))
    (h2 : ∀ (k q : Fin 128), x2 (ix2 k q) = W (ix2 q k)) (h3 : ∀ q : Fin 128, x3 (ix2 0 q) = b (ix1 q))
    (y : S5000x128.Idx) :
    k0_pay1 (F := Ideal) x0 x1 x2 x3 y = layerOut X A W b (e y) := by
  obtain ⟨p, q, rfl⟩ : ∃ (p : Fin 5000) (q : Fin 128), y = ix2 p q := ⟨y 0, y 1, eq_ix2 y⟩
  rw [Cert.KernelIdeal.Block.payload_entry]
  have hq : e (ix2 p q) 1 = q := Fin.ext (he1 (ix2 p q))
  have hrow : ∀ k : Fin 128, e (ix2 p k) = ix2 (e (ix2 p q) 0) k := fun k => funext fun a => Fin.ext (by
    match a with
    | ⟨0, _⟩ => exact (he0 (ix2 p k)).trans (he0 (ix2 p q)).symm
    | ⟨1, _⟩ => exact he1 (ix2 p k))
  unfold layerOut
  rw [hq, h3]
  refine congrArg (· + b (ix1 q)) (Finset.sum_congr rfl fun k _ => ?_)
  rw [h0, h1, h2, hrow k]
  rfl

/-! ## The printed index maps, decided over the 20 points -/

theorem zero_offsets : (![0, 0] : Fin 2 → Nat) = fun _ => 0 := funext fun a => by fin_cases a <;> rfl

/-- The two row windows and the result window are at block row `t`, column block 0; the matrix and the row vector are
    at block (0, 0) at every point. -/
theorem index_maps : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

end Cert.KernelIdeal.Whole

end
-- ==== Proof.KernelWrite.lean ====
/-
  What a grid point writes, for ANY contents of the four arrays the windows read.

  Let `X`, `A` be 100000 × 128 arrays, `WT` a 128 × 128 array that is the transpose of `W`, and `B` a 1 × 128 array
  that is the vector `b` as one row. At point `t` the windows read rows `5000·t … 5000·t + 4999` of `X` and `A` and the
  whole of `WT` and `B`; the body's one store covers the result block; and that block is rows
  `5000·t … 5000·t + 4999` of `LayerSpec.layerOut X A W b`. The arrays are variables here, so the statement is about the
  windows' geometry and the body's arithmetic only.
-/
import proofs.«115650_j7198365188795_1_alg».proof.Proof.KernelPoint

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Cert.LayerSpec

/-- POINT `t` WRITES BLOCK `t` OF `layerOut X A W b`, whatever the arrays hold. -/
theorem block_written (X A : S100000x128.Idx → EReal) (WT : S128x128.Idx → EReal) (B : S1x128.Idx → EReal)
    (W : S128x128.Idx → EReal) (b : S128.Idx → EReal)
    (hW : ∀ k q : Fin 128, WT (ix2 k q) = W (ix2 q k)) (hb : ∀ q : Fin 128, B (ix2 0 q) = b (ix1 q)) (t : Fin cfg0.N) :
    (cfg0.win 4).cut (grid0.coords t)
        (out0_4 (F := Ideal) (((cfg0.win 0).blk t).view.read (Elt Ideal) X) (((cfg0.win 1).blk t).view.read (Elt Ideal) A)
          (((cfg0.win 2).blk t).view.read (Elt Ideal) WT) (((cfg0.win 3).blk t).view.read (Elt Ideal) B))
      = ((cfg0.win 4).blk t).view.read (Elt Ideal) (layerOut X A W b) := by
  unfold out0_4
  rw [View.canon_unit_zero zero_offsets]
  simp only [View.ld_unit_zero (S := S5000x128) zero_offsets, View.ld_unit_zero (S := S128x128) zero_offsets,
    View.ld_unit_zero (S := S1x128) zero_offsets]
  obtain ⟨a0, a1, b0, b1, c0, c1, d0, d1, o0, o1⟩ := index_maps t
  funext y
  refine point_entry X A W b _ _ _ _ ((cfg0.win 4).blk t).view.emb (t.val * 5000) ?_ ?_ ?_ ?_ ?_ ?_ y
  · intro z
    show win0_4.index t (0 : Fin 2) * 5000 + 1 * (z 0).val = t.val * 5000 + (z 0).val
    rw [o0]; omega
  · intro z
    show win0_4.index t (1 : Fin 2) * 128 + 1 * (z 1).val = (z 1).val
    rw [o1]; omega
  · intro z
    show X (((cfg0.win 0).blk t).view.emb z) = X (((cfg0.win 4).blk t).view.emb z)
    refine congrArg X (funext fun a => Fin.ext ?_)
    match a with
    | ⟨0, _⟩ => show win0_0.index t (0 : Fin 2) * 5000 + 1 * (z 0).val = win0_4.index t (0 : Fin 2) * 5000 + 1 * (z 0).val; rw [a0, o0]
    | ⟨1, _⟩ => show win0_0.index t (1 : Fin 2) * 128 + 1 * (z 1).val = win0_4.index t (1 : Fin 2) * 128 + 1 * (z 1).val; rw [a1, o1]
  · intro z
    show A (((cfg0.win 1).blk t).view.emb z) = A (((cfg0.win 4).blk t).view.emb z)
    refine congrArg A (funext fun a => Fin.ext ?_)
    match a with
    | ⟨0, _⟩ => show win0_1.index t (0 : Fin 2) * 5000 + 1 * (z 0).val = win0_4.index t (0 : Fin 2) * 5000 + 1 * (z 0).val; rw [b0, o0]
    | ⟨1, _⟩ => show win0_1.index t (1 : Fin 2) * 128 + 1 * (z 1).val = win0_4.index t (1 : Fin 2) * 128 + 1 * (z 1).val; rw [b1, o1]
  · intro k q
    show WT (((cfg0.win 2).blk t).view.emb (ix2 k q)) = _
    have hemb : ((cfg0.win 2).blk t).view.emb (ix2 k q) = ix2 k q := funext fun a => Fin.ext (by
      match a with
      | ⟨0, _⟩ => show win0_2.index t (0 : Fin 2) * 128 + 1 * k.val = k.val; rw [c0]; omega
      | ⟨1, _⟩ => show win0_2.index t (1 : Fin 2) * 128 + 1 * q.val = q.val; rw [c1]; omega)
    rw [hemb]; exact hW k q
  · intro q
    show B (((cfg0.win 3).blk t).view.emb (ix2 0 q)) = _
    have hemb : ((cfg0.win 3).blk t).view.emb (ix2 0 q) = ix2 0 q := funext fun a => Fin.ext (by
      match a with
      | ⟨0, _⟩ => show win0_3.index t (0 : Fin 2) * 1 + 1 * 0 = 0; rw [d0]
      | ⟨1, _⟩ => show win0_3.index t (1 : Fin 2) * 128 + 1 * q.val = q.val; rw [d1]; omega)
    rw [hemb]; exact hb q

end Cert.KernelIdeal.Whole

end
-- ==== Proof.KernelHost.lean ====
/-
  The arrays the region's windows read that the host wrote before it, as functions of the arguments.

  Window 2's array is the transpose of the 128 × 128 argument, window 3's the vector argument laid out as one row of
  128 entries. Window 1's array, and the second result, are the two host computations over the first argument and
  the two integer arguments that come before the region; the reference performs the very same operations with the
  same constants, so each is stated here as the reference's own stage of those arguments and is never opened.
-/
import proofs.«115650_j7198365188795_1_alg».proof.Proof.Gen.KernelIdeal.Frame
import proofs.«115650_j7198365188795_1_alg».proof.Proof.Gen.ReferenceIdeal.Read
import Idealize.ShloMosaic.Lib.StableHlo.Run
import Idealize.ShloMosaic.PureOps.Ideal

noncomputable section

namespace Cert.KernelIdeal.HostArrays

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

/-- Window 2's array: the transpose of the matrix argument. -/
theorem transposed (c : Dev nD) : (V m c main_v20 : S128x128.Idx → EReal)
    = transpose S128x128 [1, 0] (m ((c : Thread nD τ).loc main_arg3)) transposes_S128x128_S128x128_1_0 := by
  dsimp only [Gen.V, Gen.hostOps0]; after_results

/-- Window 3's array: the vector argument as one row. -/
theorem asRow (c : Dev nD) : (V m c main_v21 : S1x128.Idx → EReal)
    = shapeCast S1x128 (m ((c : Thread nD τ).loc main_arg4)) shapeCasts_S128_S1x128 := by
  dsimp only [Gen.V, Gen.hostOps0]; after_results; rfl

set_option maxHeartbeats 2000000 in
/-- Window 1's array: the second of the two host computations, the reference's stage of the same arguments. -/
theorem second (c : Dev nD) : (V m c main_v19 : S100000x128.Idx → EReal)
    = Cert.ReferenceIdeal.Read.val_main_v19 (F := Ideal) (m ((c : Thread nD τ).loc main_arg0)) (m ((c : Thread nD τ).loc main_arg1)) (m ((c : Thread nD τ).loc main_arg2)) := by
  dsimp only [Gen.V, Gen.hostOps0]; after_results; rfl

set_option maxHeartbeats 2000000 in
/-- The second result's array: the first of the two host computations, the reference's stage of the same arguments. -/
theorem first (c : Dev nD) : (V m c main_v9 : S50000x128.Idx → EReal)
    = Cert.ReferenceIdeal.Read.val_main_v9 (F := Ideal) (m ((c : Thread nD τ).loc main_arg0)) (m ((c : Thread nD τ).loc main_arg1)) (m ((c : Thread nD τ).loc main_arg2)) := by
  dsimp only [Gen.V, Gen.hostOps0]; after_results; rfl

end Cert.KernelIdeal.HostArrays

end
-- ==== Proof.KernelArray.lean ====
/-
  From blocks to the whole array.

  The grid has 20 points. At point `t` the first, second and result windows hold rows `5000·t … 5000·t + 4999` of their
  arrays (all 128 columns), while the third and fourth windows hold the whole transposed matrix and the whole row
  vector at every point. Entry `(p, q)` of the block written at `t` is therefore entry `(5000·t + p, q)` of the one
  whole-array function `LayerSpec.layerOut`: the body's sum runs over row `p` of the two row blocks, which are row
  `5000·t + p` of the arrays, and over column `q` of the transposed matrix, which is row `q` of the matrix itself.
  Row `r` of the array lies in the block of point `r / 5000`, so the 20 blocks cover the array and it ends holding
  `layerOut` everywhere. The second result is an array the host wrote before the region and no window touches.
-/
import proofs.«115650_j7198365188795_1_alg».proof.Proof.Gen.KernelIdeal.Value
import proofs.«115650_j7198365188795_1_alg».proof.Proof.KernelWrite
import proofs.«115650_j7198365188795_1_alg».proof.Proof.KernelHost
import Idealize.ShloMosaic.Lib.ValueLayout

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)
open Cert.LayerSpec

variable (m : (ℓ : Loc nD τ sig) → Buf (Elt Ideal) ℓ) (ρ : Dev nD → PrngReg)

/-! ## What a point writes back -/

/-- The array the run ends with, in terms of the arrays as the region finds them. -/
abbrev result (c : Dev nD) : S100000x128.Idx → EReal :=
  layerOut (V m c main_arg0) (V m c main_v19) (m ((c : Thread nD τ).loc main_arg3)) (m ((c : Thread nD τ).loc main_arg4))

/-- Window 2's array at `(k, q)` is the matrix argument at `(q, k)`. -/
theorem transposed_entry (c : Dev nD) (k q : Fin 128) :
    (V m c main_v20 : S128x128.Idx → EReal) (ix2 k q) = (m ((c : Thread nD τ).loc main_arg3) : S128x128.Idx → EReal) (ix2 q k) := by
  rw [Cert.KernelIdeal.HostArrays.transposed]
  exact transpose_apply [1, 0] _ transposes_S128x128_S128x128_1_0 (ix2 k q) (ix2 q k) (fun b => match b with
    | ⟨0, _⟩ => rfl
    | ⟨1, _⟩ => rfl)

/-- Window 3's array at `(0, q)` is the vector argument at `q`. -/
theorem row_entry (c : Dev nD) (q : Fin 128) :
    (V m c main_v21 : S1x128.Idx → EReal) (ix2 0 q) = (m ((c : Thread nD τ).loc main_arg4) : S128.Idx → EReal) (ix1 q) := by
  rw [Cert.KernelIdeal.HostArrays.asRow]
  exact shapeCast_a_1a_apply _ shapeCasts_S128_S1x128 (0 : Fin 1) q

/-- POINT `t` WRITES BLOCK `t` OF `result`: the block statement at the arrays the region finds. -/
theorem flushed_eq (c : Dev nD) (t : Fin cfg0.N) :
    (dats m 0 c).flushed 4 t = ((cfg0.win 4).blk t).view.read (Elt Ideal) (result m c) := by
  show (cfg0.win 4).cut (grid0.coords t) ((dats m 0 c).after 4 t) = _
  rw [after0_4]
  exact block_written (V m c main_arg0) (V m c main_v19) (V m c main_v20) (V m c main_v21)
    (m ((c : Thread nD τ).loc main_arg3)) (m ((c : Thread nD τ).loc main_arg4))
    (transposed_entry m c) (row_entry m c) t

/-! ## The blocks cover the array -/

/-- An index is in point `t`'s block iff each coordinate is in the block's range on its axis. -/
theorem mem_block (t : Fin cfg0.N) (i : S100000x128.Idx) :
    i ∈ ((cfg0.win 4).blk t).view.set ↔ ∀ a : Fin 2, win0_4.index t a * S5000x128.size a ≤ (i a).val ∧ (i a).val < win0_4.index t a * S5000x128.size a + S5000x128.size a := by
  show i ∈ ((View.whole main_v22).slice (win0_4.rect t)).set ↔ _
  rw [View.set_slice_whole, Rect.mem_set_unit]
  exact Iff.rfl

/-- Row `r` lies in the block of point `r / 5000`. -/
theorem covered (i : S100000x128.Idx) :
    ∃ t : Fin cfg0.N, (cfg0.win 4).flush t = true ∧ i ∈ ((cfg0.win 4).blk t).view.set := by
  have hN : grid0.N = 20 := N_0
  have hi0 : (i 0).val < 100000 := (i 0).isLt
  have hi1 : (i 1).val < 128 := (i 1).isLt
  have ht : (i 0).val / 5000 < cfg0.N := by show (i 0).val / 5000 < grid0.N; omega
  refine ⟨⟨(i 0).val / 5000, ht⟩, flush0_4 _, ?_⟩
  obtain ⟨-, -, -, -, -, -, -, -, o0, o1⟩ := index_maps ⟨(i 0).val / 5000, ht⟩
  rw [mem_block]
  intro a
  match a with
  | ⟨0, _⟩ =>
    show win0_4.index ⟨(i 0).val / 5000, ht⟩ (0 : Fin 2) * 5000 ≤ (i 0).val ∧ (i 0).val < win0_4.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win0_4.index ⟨(i 0).val / 5000, ht⟩ (1 : Fin 2) * 128 ≤ (i 1).val ∧ (i 1).val < win0_4.index ⟨(i 0).val / 5000, ht⟩ (1 : Fin 2) * 128 + 128
    rw [o1]; omega

/-- THE ARRAY after the run is `result`. -/
theorem final (c : Dev nD) : (dats m 0 c).arrAt 4 cfg0.N = result m c :=
  (dats m 0 c).arrAt_eq_of_cover 4 (result m c) (fun t _ => flushed_eq m c t) covered

/-! ## The run, read -/

/-- Every weakly fair execution ends with the first result at `layerOut` of the first argument, the second host
    computation of the arguments, the matrix and the vector; the second result at the first host computation; and the
    arguments unchanged. -/
theorem run : θ_run defs (onTc (τ := τ) (main (F := Ideal))) ⟨m, fun _ => 0, ρ⟩ fun r => ∀ c : Dev nD,
      r.2.mem ((c : Thread nD τ).loc main_v22)
        = layerOut (m ((c : Thread nD τ).loc main_arg0))
            (Cert.ReferenceIdeal.Read.val_main_v19 (F := Ideal) (m ((c : Thread nD τ).loc main_arg0)) (m ((c : Thread nD τ).loc main_arg1)) (m ((c : Thread nD τ).loc main_arg2)))
            (m ((c : Thread nD τ).loc main_arg3)) (m ((c : Thread nD τ).loc main_arg4))
      ∧ r.2.mem ((c : Thread nD τ).loc main_v9)
        = Cert.ReferenceIdeal.Read.val_main_v9 (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      (Cert.KernelIdeal.Value.post4 m r h c).trans ((final m c).trans (by
        unfold result; rw [V_main_arg0, Cert.KernelIdeal.HostArrays.second])),
      ((h c).2 main_v9 (Pipeline.mem_restRefs_of main_v9 (by decide) (by decide))).trans (Cert.KernelIdeal.HostArrays.first m c),
      Cert.KernelIdeal.Value.kept_main_arg0 m r h c,
      Cert.KernelIdeal.Value.kept_main_arg1 m r h c,
      Cert.KernelIdeal.Value.kept_main_arg2 m r h c,
      Cert.KernelIdeal.Value.kept_main_arg3 m r h c,
      Cert.KernelIdeal.Value.kept_main_arg4 m r h c⟩)
    (run_main m ρ)

end Cert.KernelIdeal.Whole

end
-- ==== Proof.RefArray.lean ====
/-
  The reference's result is the same whole-array function.

  The reference adds the scaled first argument to the second host computation, multiplies by the transposed matrix
  with one host product over the whole 100000 × 128 array, and adds the vector broadcast down the rows. On the
  extended reals the host product at `(r, j)` is the sum over `k` of the left operand at `(r, k)` times the transposed
  matrix at `(k, j)`, which is the matrix at `(j, k)`; the broadcast of a scalar reads the scalar, and the two
  broadcasts of the vector read its entry `j`. Term by term this is `LayerSpec.layerOut`; no law of arithmetic is used.
-/
import proofs.«115650_j7198365188795_1_alg».proof.Proof.Gen.ReferenceIdeal.Read
import proofs.«115650_j7198365188795_1_alg».proof.Proof.LayerSpec

noncomputable section

open scoped BigOperators

namespace Cert.ReferenceIdeal.Whole

open Cert.ReferenceIdeal Cert.ReferenceIdeal.Read Idealize.ShloMosaic Idealize.ShloMosaic.ValueIdx
open Cert.LayerSpec

/-- The left operand of the host product at `(r, j)`, term `k`, is read at `(r, k)`. -/
theorem left_index (i : S100000x128.Idx) (k : Fin 128) : lidx_main_v24 i k = ix2 (i 0) k :=
  funext fun a => Fin.ext (by match a with | ⟨0, _⟩ => rfl | ⟨1, _⟩ => rfl)

/-- The transposed matrix at `(k, j)` is the matrix at `(j, k)`. -/
theorem right_index (i : S100000x128.Idx) (k : Fin 128) : idx_main_v23 (ridx_main_v24 i k) = ix2 (i 1) k :=
  funext fun a => Fin.ext (by match a with | ⟨0, _⟩ => rfl | ⟨1, _⟩ => rfl)

/-- The vector broadcast to a row and then down the rows is read at the column. -/
theorem bias_index (i : S100000x128.Idx) : idx_main_v25 (idx_main_v26 i) = ix1 (i 1) :=
  funext fun a => Fin.ext (by match a with | ⟨0, _⟩ => rfl)

/-- THE REFERENCE'S RESULT, as a stage of its arguments, is `layerOut` of the first argument, the second host
    computation, the matrix and the vector. -/
theorem result_eq (x0 : (⟨S100000x128, .f32⟩ : BufTy).Contents (Elt Ideal)) (x1 x2 : (⟨S1600000, .i32⟩ : BufTy).Contents (Elt Ideal))
    (x3 : (⟨S128x128, .f32⟩ : BufTy).Contents (Elt Ideal)) (x4 : (⟨S128, .f32⟩ : BufTy).Contents (Elt Ideal)) :
    val_main_v27 (F := Ideal) x0 x1 x2 x3 x4 = layerOut x0 (val_main_v19 (F := Ideal) x0 x1 x2) x3 x4 := by
  funext i
  rw [val_main_v27_apply, val_main_v24_apply, val_main_v26_apply, val_main_v25_apply, bias_index]
  unfold layerOut
  refine congrArg (· + x4 (ix1 (i 1))) (Finset.sum_congr rfl fun k _ => ?_)
  rw [val_main_v22_apply, val_main_v21_apply, val_main_v20_apply, val_main_cst_4_apply, val_main_v23_apply,
    left_index, right_index]
  rfl

end Cert.ReferenceIdeal.Whole

end
-- ==== Proof.lean ====
/-
  Both programs compute, from a 100000 × 128 matrix `x`, two integer vectors, a 128 × 128 matrix `W` and a vector `b`
  of 128 entries, the pair

      ( (one · x + a) · Wᵀ + b ,  a' ),

  where `a'` and `a` are two host computations over `x` and the integer vectors (a gather followed by a scattered sum,
  twice) that the two programs spell with the same operations and the same constants, and that this proof never
  opens. The kernel computes the first component in 20 independent blocks of 5000 rows, each a product into a zero
  accumulator after two changes of float format; the reference computes it with one host product over the whole
  array. On the extended reals a change of float format is the identity and both products are the plain sum over
  the 128 contracted entries, so entry `(r, j)` of either result is

      (∑ k, (one · x (r, k) + a (r, k)) · W (j, k)) + b j        (`LayerSpec.layerOut`),

  term by term: no law of arithmetic is needed, and the precondition (finite inputs) is not used.
  `KernelBlock` reads the body's result at an entry, `KernelHost` the arrays the host wrote before the region,
  `KernelArray` puts the 20 blocks together and reads the kernel's run, `RefArray` reads the reference's result.
  The idealization rewrote no operation of the kernel, so there is nothing to preserve beyond the program's own text.
-/
import proofs.«115650_j7198365188795_1_alg».proof.Defs
import proofs.«115650_j7198365188795_1_alg».proof.Proof.Gen.Kernel
import proofs.«115650_j7198365188795_1_alg».proof.Proof.Gen.Kernel.Skeleton
import proofs.«115650_j7198365188795_1_alg».proof.Proof.Gen.Kernel.Launch
import proofs.«115650_j7198365188795_1_alg».proof.Proof.Gen.Kernel.Points
import proofs.«115650_j7198365188795_1_alg».proof.Proof.Gen.Kernel.Frame
import proofs.«115650_j7198365188795_1_alg».proof.Proof.Gen.KernelIdeal
import proofs.«115650_j7198365188795_1_alg».proof.Proof.Gen.KernelIdeal.Skeleton
import proofs.«115650_j7198365188795_1_alg».proof.Proof.Gen.KernelIdeal.Launch
import proofs.«115650_j7198365188795_1_alg».proof.Proof.Gen.KernelIdeal.Points
import proofs.«115650_j7198365188795_1_alg».proof.Proof.Gen.KernelIdeal.Frame
import proofs.«115650_j7198365188795_1_alg».proof.Proof.Gen.ReferenceIdeal
import proofs.«115650_j7198365188795_1_alg».proof.Proof.Gen.Pre_finite_inputs
import proofs.«115650_j7198365188795_1_alg».proof.Proof.Gen.KernelIdeal.Value
import proofs.«115650_j7198365188795_1_alg».proof.Proof.Gen.ReferenceIdeal.Run
import proofs.«115650_j7198365188795_1_alg».proof.Proof.Gen.ReferenceIdeal.Read
import proofs.«115650_j7198365188795_1_alg».proof.Proof.KernelArray
import proofs.«115650_j7198365188795_1_alg».proof.Proof.RefArray
import Idealize.ShloMosaic.Adequacy
import Idealize.ShloMosaic.Init

noncomputable section

namespace Cert.Proof

open Idealize.ShloMosaic Idealize.SL.Sem

/-- The kernel as printed runs and leaves its arguments unchanged. -/
theorem frame_kernel : @Cert.frame_Kernel Cert.Kernel.Gen.facts Cert.Pre_finite_inputs.Gen.facts :=
  fun m ρ _ => Cert.Kernel.Gen.frame m ρ

/-- So does the idealized kernel. -/
theorem frame_kernelIdeal : @Cert.frame_KernelIdeal Cert.KernelIdeal.Gen.facts Cert.Pre_finite_inputs.Gen.facts :=
  fun m ρ _ => Cert.KernelIdeal.Gen.frame m ρ

/-- The reference runs and leaves its arguments unchanged: its run, with the results dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2.2)
    (Cert.ReferenceIdeal.Value.run (F := Ideal) m ρ)

/-- From memories that agree on the arguments both runs end with the first result at `layerOut` of the arguments and
    the second host computation, and the second result at the first host computation. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Whole.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v27_eq, Cert.ReferenceIdeal.Whole.result_eq,
      (hagree c).1, (hagree c).2.1, (hagree c).2.2.1, (hagree c).2.2.2.1, (hagree c).2.2.2.2]
  · rw [(h c).2.1, Cert.ReferenceIdeal.Read.val_main_v9_eq, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
